-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500000 : Shape := ⟨1, ![500000]⟩
abbrev S2x128 : Shape := ⟨2, ![2, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000 : S_.BroadcastsInDim S500000 (![] : Fin 0 → Fin S500000.rank)
  reducesTo_S500000_S_d0 : S500000.ReducesTo [0] S_
  bcast_S_S2x128 : S_.BroadcastsInDim S2x128 (![] : Fin 0 → Fin S2x128.rank)
  reducesTo_S2x128_S_d0_1 : S2x128.ReducesTo [0, 1] S_

variable [Facts]

def fn {F : FTy → Type} [FloatOps F] (main_arg0 : FVec F S50000x128 .f32) (main_arg1 : IVec S500000 32) (main_arg2 : IVec S500000 32) (main_arg3 : FVec F S500000 .f32) (main_arg4 : FVec F S2x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000 .f32 := Host.absf main_arg3
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S2x128 .f32 := Host.absf main_arg4
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  main_v13
-- ==== Kernel.lean ====
abbrev S50000x128 : Shape := ⟨2, ![50000, 128]⟩
abbrev S500000 : Shape := ⟨1, ![500000]⟩
abbrev S2x128 : Shape := ⟨2, ![2, 128]⟩
abbrev S_ : Shape := ⟨0, ![]⟩
abbrev S500000x1 : Shape := ⟨2, ![500000, 1]⟩
abbrev S500000x128 : Shape := ⟨2, ![500000, 128]⟩
abbrev S1x128 : Shape := ⟨2, ![1, 128]⟩
abbrev S128 : Shape := ⟨1, ![128]⟩
abbrev S5000x128 : Shape := ⟨2, ![5000, 128]⟩

abbrev nBuf : Space → Nat
  | .hbm => 50
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S500000, .i32⟩
  | .hbm, ⟨2, _⟩ => ⟨S500000, .i32⟩
  | .hbm, ⟨3, _⟩ => ⟨S500000, .f32⟩
  | .hbm, ⟨4, _⟩ => ⟨S2x128, .f32⟩
  | .hbm, ⟨5, _⟩ => ⟨S_, .i32⟩
  | .hbm, ⟨6, _⟩ => ⟨S500000, .i32⟩
  | .hbm, ⟨7, _⟩ => ⟨S500000, .i1⟩
  | .hbm, ⟨8, _⟩ => ⟨S_, .i32⟩
  | .hbm, ⟨9, _⟩ => ⟨S500000, .i32⟩
  | .hbm, ⟨10, _⟩ => ⟨S500000, .i32⟩
  | .hbm, ⟨11, _⟩ => ⟨S500000, .i32⟩
  | .hbm, ⟨12, _⟩ => ⟨S500000x1, .i32⟩
  | .hbm, ⟨13, _⟩ => ⟨S500000x128, .f32⟩
  | .hbm, ⟨14, _⟩ => ⟨S500000x1, .f32⟩
  | .hbm, ⟨15, _⟩ => ⟨S500000x128, .f32⟩
  | .hbm, ⟨16, _⟩ => ⟨S500000x128, .f32⟩
  | .hbm, ⟨17, _⟩ => ⟨S_, .f32⟩
  | .hbm, ⟨18, _⟩ => ⟨S50000x128, .f32⟩
  | .hbm, ⟨19, _⟩ => ⟨S500000x1, .i32⟩
  | .hbm, ⟨20, _⟩ => ⟨S50000x128, .f32⟩
  | .hbm, ⟨21, _⟩ => ⟨S1x128, .f32⟩
  | .hbm, ⟨22, _⟩ => ⟨S128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S_, .i32⟩
  | .hbm, ⟨27, _⟩ => ⟨S500000, .i32⟩
  | .hbm, ⟨28, _⟩ => ⟨S500000, .i1⟩
  | .hbm, ⟨29, _⟩ => ⟨S_, .i32⟩
  | .hbm, ⟨30, _⟩ => ⟨S500000, .i32⟩
  | .hbm, ⟨31, _⟩ => ⟨S500000, .i32⟩
  | .hbm, ⟨32, _⟩ => ⟨S500000, .i32⟩
  | .hbm, ⟨33, _⟩ => ⟨S500000x1, .i32⟩
  | .hbm, ⟨34, _⟩ => ⟨S500000x128, .f32⟩
  | .hbm, ⟨35, _⟩ => ⟨S500000x1, .f32⟩
  | .hbm, ⟨36, _⟩ => ⟨S500000x128, .f32⟩
  | .hbm, ⟨37, _⟩ => ⟨S500000x128, .f32⟩
  | .hbm, ⟨38, _⟩ => ⟨S_, .f32⟩
  | .hbm, ⟨39, _⟩ => ⟨S50000x128, .f32⟩
  | .hbm, ⟨40, _⟩ => ⟨S500000x1, .i32⟩
  | .hbm, ⟨41, _⟩ => ⟨S50000x128, .f32⟩
  | .hbm, ⟨42, _⟩ => ⟨S1x128, .f32⟩
  | .hbm, ⟨43, _⟩ => ⟨S128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33_0 : Ref sig .tc := ⟨.hbm, 45, rfl⟩
abbrev main_v33_1 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  slices_S2x128_S1x128_0_0 : S2x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  slices_S2x128_S1x128_1_0 : S2x128.Slices ![1, 0] S1x128
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16_1) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v33_1) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S500000 : Shape := ⟨1, ![500000]⟩
abbrev S2x128 : Shape := ⟨2, ![2, 128]⟩
abbrev S500000x1 : Shape := ⟨2, ![500000, 1]⟩
abbrev S_ : Shape := ⟨0, ![]⟩
abbrev S500000x128 : Shape := ⟨2, ![500000, 128]⟩
abbrev S1x128 : Shape := ⟨2, ![1, 128]⟩
abbrev S128 : Shape := ⟨1, ![128]⟩

abbrev nBuf : Space → Nat
  | .hbm => 52
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S500000, .i32⟩
  | .hbm, ⟨2, _⟩ => ⟨S500000, .i32⟩
  | .hbm, ⟨3, _⟩ => ⟨S500000, .f32⟩
  | .hbm, ⟨4, _⟩ => ⟨S2x128, .f32⟩
  | .hbm, ⟨5, _⟩ => ⟨S500000x1, .f32⟩
  | .hbm, ⟨6, _⟩ => ⟨S_, .i32⟩
  | .hbm, ⟨7, _⟩ => ⟨S500000, .i32⟩
  | .hbm, ⟨8, _⟩ => ⟨S500000, .i1⟩
  | .hbm, ⟨9, _⟩ => ⟨S_, .i32⟩
  | .hbm, ⟨10, _⟩ => ⟨S500000, .i32⟩
  | .hbm, ⟨11, _⟩ => ⟨S500000, .i32⟩
  | .hbm, ⟨12, _⟩ => ⟨S500000, .i32⟩
  | .hbm, ⟨13, _⟩ => ⟨S500000x1, .i32⟩
  | .hbm, ⟨14, _⟩ => ⟨S500000x128, .f32⟩
  | .hbm, ⟨15, _⟩ => ⟨S500000x128, .f32⟩
  | .hbm, ⟨16, _⟩ => ⟨S500000x128, .f32⟩
  | .hbm, ⟨17, _⟩ => ⟨S_, .f32⟩
  | .hbm, ⟨18, _⟩ => ⟨S50000x128, .f32⟩
  | .hbm, ⟨19, _⟩ => ⟨S500000x1, .i32⟩
  | .hbm, ⟨20, _⟩ => ⟨S50000x128, .f32⟩
  | .hbm, ⟨21, _⟩ => ⟨S1x128, .f32⟩
  | .hbm, ⟨22, _⟩ => ⟨S128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S50000x128, .f32⟩
  | .hbm, ⟨27, _⟩ => ⟨S500000x1, .f32⟩
  | .hbm, ⟨28, _⟩ => ⟨S_, .i32⟩
  | .hbm, ⟨29, _⟩ => ⟨S500000, .i32⟩
  | .hbm, ⟨30, _⟩ => ⟨S500000, .i1⟩
  | .hbm, ⟨31, _⟩ => ⟨S_, .i32⟩
  | .hbm, ⟨32, _⟩ => ⟨S500000, .i32⟩
  | .hbm, ⟨33, _⟩ => ⟨S500000, .i32⟩
  | .hbm, ⟨34, _⟩ => ⟨S500000, .i32⟩
  | .hbm, ⟨35, _⟩ => ⟨S500000x1, .i32⟩
  | .hbm, ⟨36, _⟩ => ⟨S500000x128, .f32⟩
  | .hbm, ⟨37, _⟩ => ⟨S500000x128, .f32⟩
  | .hbm, ⟨38, _⟩ => ⟨S500000x128, .f32⟩
  | .hbm, ⟨39, _⟩ => ⟨S_, .f32⟩
  | .hbm, ⟨40, _⟩ => ⟨S50000x128, .f32⟩
  | .hbm, ⟨41, _⟩ => ⟨S500000x1, .i32⟩
  | .hbm, ⟨42, _⟩ => ⟨S50000x128, .f32⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S50000x128, .f32⟩
  | .hbm, ⟨51, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]

class Facts₀ : Prop where
  bcast_S500000_S500000x1_0 : S500000.BroadcastsInDim S500000x1 (![0] : Fin 1 → Fin S500000x1.rank)
  bcast_S_S500000 : S_.BroadcastsInDim S500000 (![] : Fin 0 → Fin S500000.rank)
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x128_S1x128_1_0 : S2x128.Slices ![1, 0] S1x128
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf

class Facts : Prop extends Facts₀ where

variable [Facts]
-- ==== Proof.ResultRun.lean ====
/-
  The idealized kernel's whole run with its RESULT kept. @main is five stretches: host operations, the first
  bias-and-residual region, host operations, the second region, and the closing division. Between stretches the
  TensorCore's buffers are a fold from the launch memory (the contents `W0 … W5` of the frame module): a host
  stretch applies its operations, a region replaces its windows' arrays by what its write-backs leave. The frame
  only reads the five arguments off the last contents `W5`; here the same run is read once more at the result
  buffer, so that every later step is pure: what is `W5` at the result, as a function of the arguments?
-/
import proofs.«178935_j33535104647603_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds the last
    boundary's contents `W5` at that buffer, and the five argument arrays are as launched. -/
theorem run : θ_run defs (onTc (τ := τ) (main (F := F))) ⟨m, fun _ => 0, ρ⟩ (fun r => ∀ c : Dev nD,
      r.2.mem ((c.tc : Thread nD τ).loc main_v35) = W5 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v35 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.ResultRun

end
-- ==== Proof.RowBias.lean ====
/-
  Adding one row to every row of a matrix. Both programs add a bias row `b` (128 numbers) to each of the 50000
  rows of an aggregate `A`; they differ only in how the row is laid out before the sum. The kernel keeps the row as a
  [1, 128] block and broadcasts it over the 5000 rows of the block in hand; the reference broadcasts it over the
  whole [50000, 128] array on the host. Entry (p, q) of the sum is `A(p, q) + b(0, q)` either way.
  This module has the common form `addRow` and the kernel body's two stored values read at one entry of a block.
-/
import Idealize.ShloMosaic.Lib.Pipeline.Value
import Idealize.ShloMosaic.Lib.ValueIdx

noncomputable section

namespace Cert.RowBias

open Idealize.ShloMosaic Idealize.ShloMosaic.ValueIdx

variable {F : FTy → Type} [FloatOps F]

/-- The node-feature arrays, one block of them, and a bias row. -/
abbrev SN : Shape := ⟨2, ![50000, 128]⟩
abbrev SB : Shape := ⟨2, ![5000, 128]⟩
abbrev SR : Shape := ⟨2, ![1, 128]⟩

/-- Column `q` of the bias row, as an index of the [1, 128] row: `(0, q)`. -/
abbrev rowIx (q : Fin 128) : SR.Idx := ix2 (0 : Fin 1) q

/-- The column of an entry of the [50000, 128] array, as a number below 128. -/
abbrev colN (i : SN.Idx) : Fin 128 := ⟨(i 1).val, (i 1).isLt⟩
/-- The column of an entry of a [5000, 128] block, as a number below 128. -/
abbrev colB (j : SB.Idx) : Fin 128 := ⟨(j 1).val, (j 1).isLt⟩

/-- Every row of `A` plus the row `b`: entry (p, q) is `A(p, q) + b(0, q)`. -/
def addRow (A : SN.Idx → F .f32) (b : SR.Idx → F .f32) : SN.Idx → F .f32 :=
  fun i => FloatOps.addf (A i) (b (rowIx (colN i)))

theorem addRow_apply (A : SN.Idx → F .f32) (b : SR.Idx → F .f32) (i : SN.Idx) :
    addRow A b i = FloatOps.addf (A i) (b (rowIx (colN i))) := rfl

/-- The [1, 128] row broadcast over a [5000, 128] block reads, at entry `j`, the row at `j`'s column. -/
theorem broadcastRow_apply (x1 : SR.Idx → F .f32) (hb : SR.Broadcasts SB) (j : SB.Idx) :
    broadcastTo SB x1 hb j = x1 (rowIx (colB j)) :=
  broadcastTo_apply x1 hb j (rowIx (colB j)) (fun a => match a with
    | ⟨0, _⟩ => by show (0 : Nat) = if (1 : Nat) = 1 then 0 else _; rw [if_pos rfl]
    | ⟨1, _⟩ => by show (j 1).val = if (128 : Nat) = 1 then 0 else _; rw [if_neg (by decide)]; rfl)

/-- The kernel body's first stored value (the aggregate block plus the broadcast row, each behind a trivial
    reshape) at entry `j` of the block. -/
theorem blockSum_apply (x0 : SB.Idx → F .f32) (x1 : SR.Idx → F .f32) (h0 : SB.ShapeCasts SB) (h1 : SR.ShapeCasts SR)
    (hb : SR.Broadcasts SB) (j : SB.Idx) :
    addf (shapeCast SB x0 h0) (broadcastTo SB (shapeCast SR x1 h1) hb) j
      = FloatOps.addf (x0 j) (x1 (rowIx (colB j))) := by
  rw [shapeCast_self, shapeCast_self]
  show FloatOps.addf (x0 j) (broadcastTo SB x1 hb j) = _
  rw [broadcastRow_apply]

end Cert.RowBias

end
-- ==== Proof.Region0.lean ====
/-
  The first bias-and-residual region, as two whole arrays. The region runs over ten blocks of 5000 rows. At block `t`
  its body reads the aggregate's block, the one bias row and the running sum's block, and stores
    learn = aggregate + row        (result 0)        and        total = running + learn        (result 1).
  Block `t` of every [50000, 128] operand is rows 5000 t … 5000 t + 4999 and all 128 columns; the bias row's block
  is the whole row at every point. So what point `t` writes back is block `t` of one function of the operands as the
  region finds them, the ten blocks tile the array, and after the region each result array IS that function:
    result 0 = addRow aggregate row,        result 1 = running + addRow aggregate row.
  Stated at any contents `V` at the region's entry.
-/
import proofs.«178935_j33535104647603_1_alg».proof.Proof.Gen.KernelIdeal.Frame
import proofs.«178935_j33535104647603_1_alg».proof.Proof.RowBias
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx Cert.RowBias
open Idealize.ShloMosaic.Pipeline (Dat)

variable {F : FTy → Type} [FloatOps F]
variable (V : (c : Dev nD) → (b : Ref sig .tc) → Buf (Elt F) ((c : Thread nD τ).loc b))

theorem zeros : (![0, 0] : Fin 2 → Nat) = fun _ => 0 := funext fun a => by fin_cases a <;> rfl

/-- The printed index maps over the ten points: the four [50000, 128] windows all sit at block row `t`, column
    block 0; the bias row's window stays at (0, 0). -/
theorem index_facts : ∀ t : Fin cfg0.N,
      win0_0.index t (0 : Fin 2) = win0_3.index t (0 : Fin 2) ∧ win0_0.index t (1 : Fin 2) = win0_3.index t (1 : Fin 2)
    ∧ win0_2.index t (0 : Fin 2) = win0_3.index t (0 : Fin 2) ∧ win0_2.index t (1 : Fin 2) = win0_3.index t (1 : Fin 2)
    ∧ win0_4.index t (0 : Fin 2) = win0_3.index t (0 : Fin 2) ∧ win0_4.index t (1 : Fin 2) = win0_3.index t (1 : Fin 2)
    ∧ win0_1.index t (0 : Fin 2) = 0 ∧ win0_1.index t (1 : Fin 2) = 0
    ∧ win0_3.index t (1 : Fin 2) = 0 :=
  (by decide +kernel : ∀ t : Fin grid0.N, _)

/-- Every block row 0 … 9 is some point's. -/
theorem index_onto : ∀ q : Fin 10, ∃ t : Fin cfg0.N, win0_3.index t (0 : Fin 2) = q.val ∧ win0_4.index t (0 : Fin 2) = q.val :=
  (by decide +kernel : ∀ q : Fin 10, ∃ t : Fin grid0.N, win0_3.index t (0 : Fin 2) = q.val ∧ win0_4.index t (0 : Fin 2) = q.val)

/-- The aggregate's block and result 0's block at a point are the same rows and columns. -/
theorem emb_0_3 (t : Fin cfg0.N) (j : S5000x128.Idx) : ((cfg0.win 0).blk t).view.emb j = ((cfg0.win 3).blk t).view.emb j := by
  obtain ⟨e0, e1, -⟩ := index_facts t
  funext a; apply Fin.ext
  match a with
  | ⟨0, _⟩ => show win0_0.index t (0 : Fin 2) * 5000 + 1 * (j 0).val = win0_3.index t (0 : Fin 2) * 5000 + 1 * (j 0).val; omega
  | ⟨1, _⟩ => show win0_0.index t (1 : Fin 2) * 128 + 1 * (j 1).val = win0_3.index t (1 : Fin 2) * 128 + 1 * (j 1).val; omega

/-- So are the running sum's block and result 0's, -/
theorem emb_2_3 (t : Fin cfg0.N) (j : S5000x128.Idx) : ((cfg0.win 2).blk t).view.emb j = ((cfg0.win 3).blk t).view.emb j := by
  obtain ⟨-, -, e0, e1, -⟩ := index_facts t
  funext a; apply Fin.ext
  match a with
  | ⟨0, _⟩ => show win0_2.index t (0 : Fin 2) * 5000 + 1 * (j 0).val = win0_3.index t (0 : Fin 2) * 5000 + 1 * (j 0).val; omega
  | ⟨1, _⟩ => show win0_2.index t (1 : Fin 2) * 128 + 1 * (j 1).val = win0_3.index t (1 : Fin 2) * 128 + 1 * (j 1).val; omega

/-- and result 1's block and result 0's. -/
theorem emb_4_3 (t : Fin cfg0.N) (j : S5000x128.Idx) : ((cfg0.win 4).blk t).view.emb j = ((cfg0.win 3).blk t).view.emb j := by
  obtain ⟨-, -, -, -, e0, e1, -⟩ := index_facts t
  funext a; apply Fin.ext
  match a with
  | ⟨0, _⟩ => show win0_4.index t (0 : Fin 2) * 5000 + 1 * (j 0).val = win0_3.index t (0 : Fin 2) * 5000 + 1 * (j 0).val; omega
  | ⟨1, _⟩ => show win0_4.index t (1 : Fin 2) * 128 + 1 * (j 1).val = win0_3.index t (1 : Fin 2) * 128 + 1 * (j 1).val; omega

/-- The bias row's block at any point is the row itself: its entry at `j`'s column is the row's entry at the column
    of `j`'s place in the array. -/
theorem emb_row (t : Fin cfg0.N) (j : S5000x128.Idx) :
    ((cfg0.win 1).blk t).view.emb (rowIx (colB j)) = rowIx (colN (((cfg0.win 3).blk t).view.emb j)) := by
  obtain ⟨-, -, -, -, -, -, e0, e1, e3⟩ := index_facts t
  funext a; apply Fin.ext
  match a with
  | ⟨0, _⟩ => show win0_1.index t (0 : Fin 2) * 1 + 1 * 0 = 0; omega
  | ⟨1, _⟩ => show win0_1.index t (1 : Fin 2) * 128 + 1 * (j 1).val = win0_3.index t (1 : Fin 2) * 128 + 1 * (j 1).val; omega

/-- What point `t` writes back to result 0 is block `t` of `addRow aggregate row`. -/
theorem flushed3_eq (c : Dev nD) (t : Fin cfg0.N) :
    (dat0 V c).flushed 3 t = ((cfg0.win 3).blk t).view.read (Elt F) (addRow (V c main_v12) (V c main_v15)) := by
  show (cfg0.win 3).cut (grid0.coords t) ((dat0 V c).after 3 t) = _
  rw [after0_3]
  unfold out0_3
  rw [View.canon_unit_zero zeros]
  simp only [View.ld_unit_zero (S := S5000x128) zeros, View.ld_unit_zero (S := S1x128) zeros]
  funext j
  show k0_pay1 (iblk0 V c 1 t) (iblk0 V c 0 t) j = addRow (V c main_v12) (V c main_v15) (((cfg0.win 3).blk t).view.emb j)
  refine (blockSum_apply (iblk0 V c 0 t) (iblk0 V c 1 t) _ _ _ j).trans ?_
  rw [addRow_apply]
  show FloatOps.addf (V c main_v12 (((cfg0.win 0).blk t).view.emb j)) (V c main_v15 (((cfg0.win 1).blk t).view.emb (rowIx (colB j))))
    = FloatOps.addf (V c main_v12 (((cfg0.win 3).blk t).view.emb j)) (V c main_v15 (rowIx (colN (((cfg0.win 3).blk t).view.emb j))))
  rw [emb_0_3, emb_row]

/-- What point `t` writes back to result 1 is block `t` of `running + addRow aggregate row`. -/
theorem flushed4_eq (c : Dev nD) (t : Fin cfg0.N) :
    (dat0 V c).flushed 4 t = ((cfg0.win 4).blk t).view.read (Elt F) (addf (V c main_arg0) (addRow (V c main_v12) (V c main_v15))) := by
  show (cfg0.win 4).cut (grid0.coords t) ((dat0 V c).after 4 t) = _
  rw [after0_4]
  unfold out0_4
  rw [View.canon_unit_zero zeros]
  simp only [View.ld_unit_zero (S := S5000x128) zeros, View.ld_unit_zero (S := S1x128) zeros]
  funext j
  show FloatOps.addf (iblk0 V c 2 t j) (k0_pay1 (iblk0 V c 1 t) (iblk0 V c 0 t) j)
    = FloatOps.addf (V c main_arg0 (((cfg0.win 4).blk t).view.emb j)) (addRow (V c main_v12) (V c main_v15) (((cfg0.win 4).blk t).view.emb j))
  have hp : k0_pay1 (iblk0 V c 1 t) (iblk0 V c 0 t) j
      = FloatOps.addf (iblk0 V c 0 t j) (iblk0 V c 1 t (rowIx (colB j))) :=
    blockSum_apply (iblk0 V c 0 t) (iblk0 V c 1 t) _ _ _ j
  rw [hp, addRow_apply, emb_4_3]
  show FloatOps.addf (V c main_arg0 (((cfg0.win 2).blk t).view.emb j))
      (FloatOps.addf (V c main_v12 (((cfg0.win 0).blk t).view.emb j)) (V c main_v15 (((cfg0.win 1).blk t).view.emb (rowIx (colB j)))))
    = FloatOps.addf (V c main_arg0 (((cfg0.win 3).blk t).view.emb j))
      (FloatOps.addf (V c main_v12 (((cfg0.win 3).blk t).view.emb j)) (V c main_v15 (rowIx (colN (((cfg0.win 3).blk t).view.emb j)))))
  rw [emb_0_3, emb_2_3, emb_row]

/-- An entry of result 0's array is in point `t`'s block iff each coordinate is in the block's range. -/
theorem mem_blk3 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16_0).slice (win0_3.rect t)).set ↔ _
  rw [View.set_slice_whole, Rect.mem_set_unit]
  exact Iff.rfl

theorem mem_blk4 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v16_1).slice (win0_4.rect t)).set ↔ _
  rw [View.set_slice_whole, Rect.mem_set_unit]
  exact Iff.rfl

/-- Row `r` lies in the block of the point whose block row is `r / 5000`: the ten blocks cover result 0's array, -/
theorem cover3 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, q0, -⟩ := index_onto ⟨(i 0).val / 5000, by omega⟩
  obtain ⟨-, -, -, -, -, -, -, -, q1⟩ := index_facts t
  have q0' : win0_3.index t (0 : Fin 2) = (i 0).val / 5000 := q0
  refine ⟨t, flush0_3 t, ?_⟩
  rw [mem_blk3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- and result 1's. -/
theorem cover4 (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, -, q0⟩ := index_onto ⟨(i 0).val / 5000, by omega⟩
  obtain ⟨-, -, -, -, -, e1, -, -, q1⟩ := index_facts t
  have q0' : win0_4.index t (0 : Fin 2) = (i 0).val / 5000 := q0
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- After the region, result 0 holds the aggregate plus the bias row, -/
theorem final3 (c : Dev nD) : (dat0 V c).arrAt 3 cfg0.N = addRow (V c main_v12) (V c main_v15) :=
  (dat0 V c).arrAt_eq_of_cover 3 _ (fun t _ => flushed3_eq V c t) cover3

/-- and result 1 the running sum plus that. -/
theorem final4 (c : Dev nD) : (dat0 V c).arrAt 4 cfg0.N = addf (V c main_arg0) (addRow (V c main_v12) (V c main_v15)) :=
  (dat0 V c).arrAt_eq_of_cover 4 _ (fun t _ => flushed4_eq V c t) cover4

end Cert.KernelIdeal.Region0

end
-- ==== Proof.Region1.lean ====
/-
  The second bias-and-residual region, as two whole arrays: the same computation as the first region on the second
  layer's operands — the second aggregate, the second bias row, and as running sum the first region's total. At block
  `t` the body stores
    learn = aggregate + row        (result 0)        and        total = running + learn        (result 1),
  the running sum's block passing through one reshape to its own shape, which changes nothing. The ten blocks tile
  the arrays, so after the region
    result 0 = addRow aggregate row,        result 1 = running + addRow aggregate row.
  Stated at any contents `V` at the region's entry.
-/
import proofs.«178935_j33535104647603_1_alg».proof.Proof.Gen.KernelIdeal.Frame
import proofs.«178935_j33535104647603_1_alg».proof.Proof.RowBias
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Cert.RowBias
open Idealize.ShloMosaic.Pipeline (Dat)

variable {F : FTy → Type} [FloatOps F]
variable (V : (c : Dev nD) → (b : Ref sig .tc) → Buf (Elt F) ((c : Thread nD τ).loc b))

theorem zeros : (![0, 0] : Fin 2 → Nat) = fun _ => 0 := funext fun a => by fin_cases a <;> rfl

/-- The printed index maps over the ten points: the four [50000, 128] windows all sit at block row `t`, column
    block 0; the bias row's window stays at (0, 0). -/
theorem index_facts : ∀ t : Fin cfg1.N,
      win1_0.index t (0 : Fin 2) = win1_3.index t (0 : Fin 2) ∧ win1_0.index t (1 : Fin 2) = win1_3.index t (1 : Fin 2)
    ∧ win1_2.index t (0 : Fin 2) = win1_3.index t (0 : Fin 2) ∧ win1_2.index t (1 : Fin 2) = win1_3.index t (1 : Fin 2)
    ∧ win1_4.index t (0 : Fin 2) = win1_3.index t (0 : Fin 2) ∧ win1_4.index t (1 : Fin 2) = win1_3.index t (1 : Fin 2)
    ∧ win1_1.index t (0 : Fin 2) = 0 ∧ win1_1.index t (1 : Fin 2) = 0
    ∧ win1_3.index t (1 : Fin 2) = 0 :=
  (by decide +kernel : ∀ t : Fin grid1.N, _)

/-- Every block row 0 … 9 is some point's. -/
theorem index_onto : ∀ q : Fin 10, ∃ t : Fin cfg1.N, win1_3.index t (0 : Fin 2) = q.val ∧ win1_4.index t (0 : Fin 2) = q.val :=
  (by decide +kernel : ∀ q : Fin 10, ∃ t : Fin grid1.N, win1_3.index t (0 : Fin 2) = q.val ∧ win1_4.index t (0 : Fin 2) = q.val)

/-- The aggregate's block and result 0's block at a point are the same rows and columns. -/
theorem emb_0_3 (t : Fin cfg1.N) (j : S5000x128.Idx) : ((cfg1.win 0).blk t).view.emb j = ((cfg1.win 3).blk t).view.emb j := by
  obtain ⟨e0, e1, -⟩ := index_facts t
  funext a; apply Fin.ext
  match a with
  | ⟨0, _⟩ => show win1_0.index t (0 : Fin 2) * 5000 + 1 * (j 0).val = win1_3.index t (0 : Fin 2) * 5000 + 1 * (j 0).val; omega
  | ⟨1, _⟩ => show win1_0.index t (1 : Fin 2) * 128 + 1 * (j 1).val = win1_3.index t (1 : Fin 2) * 128 + 1 * (j 1).val; omega

/-- So are the running sum's block and result 0's, -/
theorem emb_2_3 (t : Fin cfg1.N) (j : S5000x128.Idx) : ((cfg1.win 2).blk t).view.emb j = ((cfg1.win 3).blk t).view.emb j := by
  obtain ⟨-, -, e0, e1, -⟩ := index_facts t
  funext a; apply Fin.ext
  match a with
  | ⟨0, _⟩ => show win1_2.index t (0 : Fin 2) * 5000 + 1 * (j 0).val = win1_3.index t (0 : Fin 2) * 5000 + 1 * (j 0).val; omega
  | ⟨1, _⟩ => show win1_2.index t (1 : Fin 2) * 128 + 1 * (j 1).val = win1_3.index t (1 : Fin 2) * 128 + 1 * (j 1).val; omega

/-- and result 1's block and result 0's. -/
theorem emb_4_3 (t : Fin cfg1.N) (j : S5000x128.Idx) : ((cfg1.win 4).blk t).view.emb j = ((cfg1.win 3).blk t).view.emb j := by
  obtain ⟨-, -, -, -, e0, e1, -⟩ := index_facts t
  funext a; apply Fin.ext
  match a with
  | ⟨0, _⟩ => show win1_4.index t (0 : Fin 2) * 5000 + 1 * (j 0).val = win1_3.index t (0 : Fin 2) * 5000 + 1 * (j 0).val; omega
  | ⟨1, _⟩ => show win1_4.index t (1 : Fin 2) * 128 + 1 * (j 1).val = win1_3.index t (1 : Fin 2) * 128 + 1 * (j 1).val; omega

/-- The bias row's block at any point is the row itself: its entry at `j`'s column is the row's entry at the column
    of `j`'s place in the array. -/
theorem emb_row (t : Fin cfg1.N) (j : S5000x128.Idx) :
    ((cfg1.win 1).blk t).view.emb (rowIx (colB j)) = rowIx (colN (((cfg1.win 3).blk t).view.emb j)) := by
  obtain ⟨-, -, -, -, -, -, e0, e1, e3⟩ := index_facts t
  funext a; apply Fin.ext
  match a with
  | ⟨0, _⟩ => show win1_1.index t (0 : Fin 2) * 1 + 1 * 0 = 0; omega
  | ⟨1, _⟩ => show win1_1.index t (1 : Fin 2) * 128 + 1 * (j 1).val = win1_3.index t (1 : Fin 2) * 128 + 1 * (j 1).val; omega

/-- What point `t` writes back to result 0 is block `t` of `addRow aggregate row`. -/
theorem flushed3_eq (c : Dev nD) (t : Fin cfg1.N) :
    (dat1 V c).flushed 3 t = ((cfg1.win 3).blk t).view.read (Elt F) (addRow (V c main_v29) (V c main_v32)) := by
  show (cfg1.win 3).cut (grid1.coords t) ((dat1 V c).after 3 t) = _
  rw [after1_3]
  unfold out1_3
  rw [View.canon_unit_zero zeros]
  simp only [View.ld_unit_zero (S := S5000x128) zeros, View.ld_unit_zero (S := S1x128) zeros]
  funext j
  show k1_pay1 (iblk1 V c 1 t) (iblk1 V c 0 t) j = addRow (V c main_v29) (V c main_v32) (((cfg1.win 3).blk t).view.emb j)
  refine (blockSum_apply (iblk1 V c 0 t) (iblk1 V c 1 t) _ _ _ j).trans ?_
  rw [addRow_apply]
  show FloatOps.addf (V c main_v29 (((cfg1.win 0).blk t).view.emb j)) (V c main_v32 (((cfg1.win 1).blk t).view.emb (rowIx (colB j))))
    = FloatOps.addf (V c main_v29 (((cfg1.win 3).blk t).view.emb j)) (V c main_v32 (rowIx (colN (((cfg1.win 3).blk t).view.emb j))))
  rw [emb_0_3, emb_row]

/-- What point `t` writes back to result 1 is block `t` of `running + addRow aggregate row`. -/
theorem flushed4_eq (c : Dev nD) (t : Fin cfg1.N) :
    (dat1 V c).flushed 4 t = ((cfg1.win 4).blk t).view.read (Elt F) (addf (V c main_v16_1) (addRow (V c main_v29) (V c main_v32))) := by
  show (cfg1.win 4).cut (grid1.coords t) ((dat1 V c).after 4 t) = _
  rw [after1_4]
  unfold out1_4
  rw [View.canon_unit_zero zeros]
  simp only [View.ld_unit_zero (S := S5000x128) zeros, View.ld_unit_zero (S := S1x128) zeros]
  funext j
  show FloatOps.addf (shapeCast S5000x128 (iblk1 V c 2 t) shapeCasts_S5000x128_S5000x128 j) (k1_pay1 (iblk1 V c 1 t) (iblk1 V c 0 t) j)
    = FloatOps.addf (V c main_v16_1 (((cfg1.win 4).blk t).view.emb j)) (addRow (V c main_v29) (V c main_v32) (((cfg1.win 4).blk t).view.emb j))
  have hs : shapeCast S5000x128 (iblk1 V c 2 t) shapeCasts_S5000x128_S5000x128 j = iblk1 V c 2 t j :=
    congrFun (shapeCast_self (s := S5000x128) (iblk1 V c 2 t) shapeCasts_S5000x128_S5000x128) j
  rw [hs]
  have hp : k1_pay1 (iblk1 V c 1 t) (iblk1 V c 0 t) j
      = FloatOps.addf (iblk1 V c 0 t j) (iblk1 V c 1 t (rowIx (colB j))) :=
    blockSum_apply (iblk1 V c 0 t) (iblk1 V c 1 t) _ _ _ j
  rw [hp, addRow_apply, emb_4_3]
  show FloatOps.addf (V c main_v16_1 (((cfg1.win 2).blk t).view.emb j))
      (FloatOps.addf (V c main_v29 (((cfg1.win 0).blk t).view.emb j)) (V c main_v32 (((cfg1.win 1).blk t).view.emb (rowIx (colB j)))))
    = FloatOps.addf (V c main_v16_1 (((cfg1.win 3).blk t).view.emb j))
      (FloatOps.addf (V c main_v29 (((cfg1.win 3).blk t).view.emb j)) (V c main_v32 (rowIx (colN (((cfg1.win 3).blk t).view.emb j)))))
  rw [emb_0_3, emb_2_3, emb_row]

/-- An entry of result 0's array is in point `t`'s block iff each coordinate is in the block's range. -/
theorem mem_blk3 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v33_0).slice (win1_3.rect t)).set ↔ _
  rw [View.set_slice_whole, Rect.mem_set_unit]
  exact Iff.rfl

theorem mem_blk4 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v33_1).slice (win1_4.rect t)).set ↔ _
  rw [View.set_slice_whole, Rect.mem_set_unit]
  exact Iff.rfl

/-- Row `r` lies in the block of the point whose block row is `r / 5000`: the ten blocks cover result 0's array, -/
theorem cover3 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, q0, -⟩ := index_onto ⟨(i 0).val / 5000, by omega⟩
  obtain ⟨-, -, -, -, -, -, -, -, q1⟩ := index_facts t
  have q0' : win1_3.index t (0 : Fin 2) = (i 0).val / 5000 := q0
  refine ⟨t, flush1_3 t, ?_⟩
  rw [mem_blk3]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- and result 1's. -/
theorem cover4 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, -, q0⟩ := index_onto ⟨(i 0).val / 5000, by omega⟩
  obtain ⟨-, -, -, -, -, e1, -, -, q1⟩ := index_facts t
  have q0' : win1_4.index t (0 : Fin 2) = (i 0).val / 5000 := q0
  refine ⟨t, flush1_4 t, ?_⟩
  rw [mem_blk4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- After the region, result 0 holds the aggregate plus the bias row, -/
theorem final3 (c : Dev nD) : (dat1 V c).arrAt 3 cfg1.N = addRow (V c main_v29) (V c main_v32) :=
  (dat1 V c).arrAt_eq_of_cover 3 _ (fun t _ => flushed3_eq V c t) cover3

/-- and result 1 the running sum plus that. -/
theorem final4 (c : Dev nD) : (dat1 V c).arrAt 4 cfg1.N = addf (V c main_v16_1) (addRow (V c main_v29) (V c main_v32)) :=
  (dat1 V c).arrAt_eq_of_cover 4 _ (fun t _ => flushed4_eq V c t) cover4

end Cert.KernelIdeal.Region1

end
-- ==== Proof.Stages.lean ====
/-
  The host stretches of the idealized kernel's @main, each read at the buffers the next stretch needs, from ANY
  contents `W` the stretch starts from.
  * One propagation step (`aggregate`): the column indices are normalised (a negative index has 50000 added), the
    source rows are gathered, each gathered row is scaled by its edge's weight, and the scaled rows are added into a
    zero [50000, 128] array at the destination rows. Both host stretches before a region compute it, the first from
    the features, the second from the first region's first result.
  * The bias row a region is handed (`biasRow0`, `biasRow1`): row 0 or row 1 of the [2, 128] bias, cut out as
    [1, 128], flattened to [128] and reshaped back to [1, 128].
  * The closing stretch divides the second region's second result by the constant 3.
  A stretch writes none of the arguments and not the running sum, so those are read through unchanged.
-/
import proofs.«178935_j33535104647603_1_alg».proof.Proof.Gen.KernelIdeal.Launch
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo

variable {F : FTy → Type} [FloatOps F]

/-- One propagation step: gather the source rows at the normalised column indices, scale each by its edge weight,
    add them into zeros at the destination rows. -/
def aggregate (x0 : FVec F S50000x128 .f32) (x1 x2 : IVec S500000 32) (x3 : FVec F S500000 .f32) : FVec F S50000x128 .f32 :=
  Host.scatterAdd scatter_S50000x128_S500000x1_S500000x128_1_0_0_1
    (broadcastInDim S50000x128 ![] bcast_S_S50000x128 (constant S_ .f32 0x00000000#32))
    (broadcastInDim S500000x1 ![0] bcast_S500000_S500000x1_0 x1)
    (mulf (broadcastInDim S500000x128 ![0, 1] bcast_S500000x1_S500000x128_0_1 (broadcastInDim S500000x1 ![0] bcast_S500000_S500000x1_0 x3))
      (Host.gather gather_S50000x128_S500000x1_S500000x128_1_0_n_n_0_1_1128 x0
        (broadcastInDim S500000x1 ![0] bcast_S500000_S500000x1_0
          (select (cmpi .slt x2 (broadcastInDim S500000 ![] bcast_S_S500000 (constantI S_ 32 0#32)))
            (addi x2 (broadcastInDim S500000 ![] bcast_S_S500000 (constantI S_ 32 50000#32))) x2))))

/-- The bias row the first region is handed: row 0, flattened and reshaped back. -/
def biasRow0 (x4 : FVec F S2x128 .f32) : FVec F S1x128 .f32 :=
  shapeCast S1x128 (shapeCast S128 (extractStridedSlice S1x128 ![0, 0] x4 slices_S2x128_S1x128_0_0) shapeCasts_S1x128_S128) shapeCasts_S128_S1x128

/-- The bias row the second region is handed: row 1, flattened and reshaped back. -/
def biasRow1 (x4 : FVec F S2x128 .f32) : FVec F S1x128 .f32 :=
  shapeCast S1x128 (shapeCast S128 (extractStridedSlice S1x128 ![1, 0] x4 slices_S2x128_S1x128_1_0) shapeCasts_S1x128_S128) shapeCasts_S128_S1x128

/-- The divisor: the constant 3 at every entry. -/
def three : FVec F S50000x128 .f32 :=
  broadcastInDim S50000x128 ![] bcast_S_S50000x128 (constant S_ .f32 0x40400000#32)

variable (W : Valuation τ sig (Elt F))

/-! ## The stretch before the first region -/

theorem pre0_aggregate : StableHlo.after hostOps0 W (Proc.devRef .tc main_v12)
    = aggregate (W (Proc.devRef .tc main_arg0)) (W (Proc.devRef .tc main_arg1)) (W (Proc.devRef .tc main_arg2)) (W (Proc.devRef .tc main_arg3)) := by
  after_results; rfl

theorem pre0_biasRow : StableHlo.after hostOps0 W (Proc.devRef .tc main_v15) = biasRow0 (W (Proc.devRef .tc main_arg4)) := by
  after_results; rfl

theorem pre0_arg0 : StableHlo.after hostOps0 W (Proc.devRef .tc main_arg0) = W (Proc.devRef .tc main_arg0) := by
  after_results

theorem pre0_arg1 : StableHlo.after hostOps0 W (Proc.devRef .tc main_arg1) = W (Proc.devRef .tc main_arg1) := by
  after_results

theorem pre0_arg2 : StableHlo.after hostOps0 W (Proc.devRef .tc main_arg2) = W (Proc.devRef .tc main_arg2) := by
  after_results

theorem pre0_arg3 : StableHlo.after hostOps0 W (Proc.devRef .tc main_arg3) = W (Proc.devRef .tc main_arg3) := by
  after_results

theorem pre0_arg4 : StableHlo.after hostOps0 W (Proc.devRef .tc main_arg4) = W (Proc.devRef .tc main_arg4) := by
  after_results

/-! ## The stretch between the regions -/

theorem pre1_aggregate : StableHlo.after hostOps1 W (Proc.devRef .tc main_v29)
    = aggregate (W (Proc.devRef .tc main_v16_0)) (W (Proc.devRef .tc main_arg1)) (W (Proc.devRef .tc main_arg2)) (W (Proc.devRef .tc main_arg3)) := by
  after_results; rfl

theorem pre1_biasRow : StableHlo.after hostOps1 W (Proc.devRef .tc main_v32) = biasRow1 (W (Proc.devRef .tc main_arg4)) := by
  after_results; rfl

theorem pre1_running : StableHlo.after hostOps1 W (Proc.devRef .tc main_v16_1) = W (Proc.devRef .tc main_v16_1) := by
  after_results

/-! ## The closing stretch -/

theorem closing : StableHlo.after hostOps2 W (Proc.devRef .tc main_v35) = Host.divf (W (Proc.devRef .tc main_v33_1)) three := by
  after_results; rfl

end Cert.KernelIdeal.Stages

end
-- ==== Proof.Layers.lean ====
/-
  The two layers and the result, as functions of the five arguments — the form both programs are compared to:
    learn₁ = addRow (aggregate fea) (bias row 0)
    learn₂ = addRow (aggregate learn₁) (bias row 1)
    result = ((fea + learn₁) + learn₂) / 3.
  Also here: the bias row a region is handed, read at a column. Row k of the bias cut out as [1, 128], flattened to
  [128] and reshaped back to [1, 128] is the cut-out row again, so its entry (0, q) is the bias at (k, q).
-/
import proofs.«178935_j33535104647603_1_alg».proof.Proof.Stages
import proofs.«178935_j33535104647603_1_alg».proof.Proof.RowBias
import Idealize.ShloMosaic.Lib.Pipeline.Value

noncomputable section

namespace Cert.KernelIdeal.Layers

open Cert.KernelIdeal Cert.KernelIdeal.Gen Idealize.ShloMosaic
open Idealize.ShloMosaic.ValueIdx Cert.RowBias Cert.KernelIdeal.Stages

variable {F : FTy → Type} [FloatOps F]

/-- The first layer's output: the aggregate of the features plus bias row 0. -/
def learn₁ (x0 : FVec F S50000x128 .f32) (x1 x2 : IVec S500000 32) (x3 : FVec F S500000 .f32) (x4 : FVec F S2x128 .f32) :
    FVec F S50000x128 .f32 :=
  addRow (aggregate x0 x1 x2 x3) (biasRow0 x4)

/-- The second layer's output: the aggregate of the first layer's output plus bias row 1. -/
def learn₂ (x0 : FVec F S50000x128 .f32) (x1 x2 : IVec S500000 32) (x3 : FVec F S500000 .f32) (x4 : FVec F S2x128 .f32) :
    FVec F S50000x128 .f32 :=
  addRow (aggregate (learn₁ x0 x1 x2 x3 x4) x1 x2 x3) (biasRow1 x4)

/-- The result: the features plus both layers' outputs, over 3. -/
def result (x0 : FVec F S50000x128 .f32) (x1 x2 : IVec S500000 32) (x3 : FVec F S500000 .f32) (x4 : FVec F S2x128 .f32) :
    FVec F S50000x128 .f32 :=
  Host.divf (addf (addf x0 (learn₁ x0 x1 x2 x3 x4)) (learn₂ x0 x1 x2 x3 x4)) three

/-- Entry (k, q) of the [2, 128] bias. -/
abbrev biasIx (k : Fin 2) (q : Fin 128) : S2x128.Idx := ix2 k q

/-- The first region's bias row at column `q` is the bias at (0, q). -/
theorem biasRow0_apply (x4 : FVec F S2x128 .f32) (q : Fin 128) : biasRow0 x4 (rowIx q) = x4 (biasIx 0 q) := by
  unfold biasRow0
  rw [shapeCast_shapeCast]
  exact extractStridedSlice_apply ![0, 0] x4 slices_S2x128_S1x128_0_0 (rowIx q) (biasIx 0 q) (fun a => match a with
    | ⟨0, _⟩ => by show (0 : Nat) = 0 + 0; rfl
    | ⟨1, _⟩ => by show q.val = 0 + q.val; omega)

/-- The second region's bias row at column `q` is the bias at (1, q). -/
theorem biasRow1_apply (x4 : FVec F S2x128 .f32) (q : Fin 128) : biasRow1 x4 (rowIx q) = x4 (biasIx 1 q) := by
  unfold biasRow1
  rw [shapeCast_shapeCast]
  exact extractStridedSlice_apply ![1, 0] x4 slices_S2x128_S1x128_1_0 (rowIx q) (biasIx 1 q) (fun a => match a with
    | ⟨0, _⟩ => by show (1 : Nat) = 1 + 0; rfl
    | ⟨1, _⟩ => by show q.val = 0 + q.val; omega)

end Cert.KernelIdeal.Layers

end
-- ==== Proof.KernelResult.lean ====
/-
  The idealized kernel's result as ONE function of its five arguments. Following the contents of the buffers from the
  launch to the return:
    learn₁ = addRow (aggregate fea) (bias row 0)                 the first region's first result
    total₁ = fea + learn₁                                        its second result
    learn₂ = addRow (aggregate learn₁) (bias row 1)              the second region's first result
    total₂ = total₁ + learn₂                                     its second result
    result = total₂ / 3.
  Each line is one boundary of the run: a host stretch read at the buffers it writes (Stages), or a region's result
  array (Region0, Region1) read at the contents the region was entered with. The arguments and the running sum pass
  through every stretch that does not write them.
-/
import proofs.«178935_j33535104647603_1_alg».proof.Proof.ResultRun
import proofs.«178935_j33535104647603_1_alg».proof.Proof.Region0
import proofs.«178935_j33535104647603_1_alg».proof.Proof.Region1
import proofs.«178935_j33535104647603_1_alg».proof.Proof.Stages
import proofs.«178935_j33535104647603_1_alg».proof.Proof.Layers

set_option maxRecDepth 16384

noncomputable section

namespace Cert.KernelIdeal.Whole

open Cert.KernelIdeal Cert.KernelIdeal.Gen Idealize.ShloMosaic Idealize.ShloMosaic.TcCoe Idealize.SL.Sem
open Cert.RowBias Cert.KernelIdeal.Stages Cert.KernelIdeal.Layers

variable {F : FTy → Type} [FloatOps F]

variable (m : (ℓ : Loc nD τ sig) → Buf (Elt F) ℓ) (ρ : Dev nD → PrngReg) (c : Dev nD)

/-! ## The first region's entry -/

theorem entry0_aggregate : V1 m ρ c main_v12
    = aggregate (m ((c.tc : Thread nD τ).loc main_arg0)) (m ((c.tc : Thread nD τ).loc main_arg1))
        (m ((c.tc : Thread nD τ).loc main_arg2)) (m ((c.tc : Thread nD τ).loc main_arg3)) :=
  pre0_aggregate (W0 m ρ c)

theorem entry0_biasRow : V1 m ρ c main_v15 = biasRow0 (m ((c.tc : Thread nD τ).loc main_arg4)) :=
  pre0_biasRow (W0 m ρ c)

theorem entry0_running : V1 m ρ c main_arg0 = m ((c.tc : Thread nD τ).loc main_arg0) :=
  pre0_arg0 (W0 m ρ c)

/-! ## The first region's exit -/

theorem exit0_learn : W2 m ρ c (Proc.devRef .tc main_v16_0)
    = learn₁ (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  refine (W2_arr m ρ c 3).trans ?_
  rw [Region0.final3, entry0_aggregate, entry0_biasRow]; rfl

theorem exit0_total : W2 m ρ c (Proc.devRef .tc main_v16_1)
    = addf (m ((c.tc : Thread nD τ).loc main_arg0))
        (learn₁ (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))) := by
  refine (W2_arr m ρ c 4).trans ?_
  rw [Region0.final4, entry0_aggregate, entry0_biasRow, entry0_running]; rfl

theorem exit0_arg1 : W2 m ρ c (Proc.devRef .tc main_arg1) = m ((c.tc : Thread nD τ).loc main_arg1) :=
  (W2_of_ne m ρ c main_arg1 (by decide)).trans (pre0_arg1 (W0 m ρ c))
theorem exit0_arg2 : W2 m ρ c (Proc.devRef .tc main_arg2) = m ((c.tc : Thread nD τ).loc main_arg2) :=
  (W2_of_ne m ρ c main_arg2 (by decide)).trans (pre0_arg2 (W0 m ρ c))
theorem exit0_arg3 : W2 m ρ c (Proc.devRef .tc main_arg3) = m ((c.tc : Thread nD τ).loc main_arg3) :=
  (W2_of_ne m ρ c main_arg3 (by decide)).trans (pre0_arg3 (W0 m ρ c))
theorem exit0_arg4 : W2 m ρ c (Proc.devRef .tc main_arg4) = m ((c.tc : Thread nD τ).loc main_arg4) :=
  (W2_of_ne m ρ c main_arg4 (by decide)).trans (pre0_arg4 (W0 m ρ c))

/-! ## The second region's entry -/

theorem entry1_aggregate : V3 m ρ c main_v29
    = aggregate (learn₁ (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)))
        (m ((c.tc : Thread nD τ).loc main_arg1)) (m ((c.tc : Thread nD τ).loc main_arg2)) (m ((c.tc : Thread nD τ).loc main_arg3)) := by
  refine (pre1_aggregate (W2 m ρ c)).trans ?_
  rw [exit0_learn, exit0_arg1, exit0_arg2, exit0_arg3]

theorem entry1_biasRow : V3 m ρ c main_v32 = biasRow1 (m ((c.tc : Thread nD τ).loc main_arg4)) := by
  refine (pre1_biasRow (W2 m ρ c)).trans ?_
  rw [exit0_arg4]

theorem entry1_running : V3 m ρ c main_v16_1
    = addf (m ((c.tc : Thread nD τ).loc main_arg0))
        (learn₁ (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))) :=
  (pre1_running (W2 m ρ c)).trans (exit0_total m ρ c)

/-! ## The second region's exit, and the result -/

theorem exit1_total : W4 m ρ c (Proc.devRef .tc main_v33_1)
    = addf (addf (m ((c.tc : Thread nD τ).loc main_arg0))
          (learn₁ (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))))
        (learn₂ (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))) := by
  refine (W4_arr m ρ c 4).trans ?_
  rw [Region1.final4, entry1_aggregate, entry1_biasRow, entry1_running]; rfl

/-- The last boundary's contents at the result buffer: the kernel's function of the five arguments. -/
theorem result_eq : W5 m ρ c (Proc.devRef .tc main_v35)
    = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  refine (closing (W4 m ρ c)).trans ?_
  rw [exit1_total]; rfl

/-- The run, read: every weakly fair execution ends with the result buffer at `result` of the launch contents of the
    arguments, and the arguments as launched. -/
theorem run : θ_run defs (onTc (τ := τ) (main (F := F))) ⟨m, fun _ => 0, ρ⟩ (fun r => ∀ c : Dev nD,
      r.2.mem ((c.tc : Thread nD τ).loc main_v35)
        = result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (ResultRun.run m ρ)

end Cert.KernelIdeal.Whole

end
-- ==== Proof.ReferenceResult.lean ====
/-
  The reference computes the same function. Its @main is one host stretch; read one operation at a time (the
  generated stages `val_main_vN`):
    v12 = aggregate fea                          v16 = bias row 0 broadcast over the 50000 rows
    v17 = v12 + v16                              v18 = fea + v17
    v31 = aggregate v17                          v35 = bias row 1 broadcast over the 50000 rows
    v36 = v31 + v35                              v37 = v18 + v36                    v39 = v37 / 3.
  The aggregate is the same chain of host operations in both programs, carried here as one function and never
  opened. The bias is laid out differently — the reference flattens row k to [128], broadcasts it to [1, 128] and then
  over all rows — but entry (p, q) of that broadcast is the bias at (k, q), which is also what the kernel's row gives.
  So v17 = learn₁, v36 = learn₂ and v39 = result, as whole arrays.
-/
import proofs.«178935_j33535104647603_1_alg».proof.Proof.Gen.ReferenceIdeal.Read
import proofs.«178935_j33535104647603_1_alg».proof.Proof.Layers

noncomputable section

namespace Cert.ReferenceIdeal.Same

open Cert.ReferenceIdeal Cert.ReferenceIdeal.Gen Cert.ReferenceIdeal.Read Idealize.ShloMosaic
open Idealize.ShloMosaic.ValueIdx Cert.RowBias

variable {F : FTy → Type} [FloatOps F]

/-- One propagation step is the same chain of host operations in the two programs. -/
theorem aggregate_eq (x0 : FVec F S50000x128 .f32) (x1 x2 : IVec S500000 32) (x3 : FVec F S500000 .f32) :
    Cert.KernelIdeal.Stages.aggregate x0 x1 x2 x3 = val_main_v12 (F := F) x0 x1 x2 x3 := rfl

/-- The second step of the reference is that chain applied to its first layer's output. -/
theorem second_step (x0 : FVec F S50000x128 .f32) (x1 x2 : IVec S500000 32) (x3 : FVec F S500000 .f32) (x4 : FVec F S2x128 .f32) :
    val_main_v31 (F := F) x0 x1 x2 x3 x4 = val_main_v12 (F := F) (val_main_v17 (F := F) x0 x1 x2 x3 x4) x1 x2 x3 := rfl

/-- The divisor is the same constant array. -/
theorem three_eq : (Cert.KernelIdeal.Stages.three : FVec F S50000x128 .f32) = val_main_v38 (F := F) := rfl

/-- Bias row 0 broadcast over all rows, at entry `i`: the bias at (0, column of `i`). -/
theorem row0_apply (x4 : FVec F S2x128 .f32) (i : S50000x128.Idx) :
    val_main_v16 (F := F) x4 i = x4 (Cert.KernelIdeal.Layers.biasIx 0 (colN i)) := by
  rw [val_main_v16_apply, val_main_v15_apply, val_main_v14_apply, val_main_v13_apply]
  refine congrArg x4 ?_
  funext a; apply Fin.ext
  match a with
  | ⟨0, _⟩ => rfl
  | ⟨1, _⟩ => show ((i 1).val) % 128 = (i 1).val; exact Nat.mod_eq_of_lt (i 1).isLt

/-- Bias row 1 broadcast over all rows, at entry `i`: the bias at (1, column of `i`). -/
theorem row1_apply (x4 : FVec F S2x128 .f32) (i : S50000x128.Idx) :
    val_main_v35 (F := F) x4 i = x4 (Cert.KernelIdeal.Layers.biasIx 1 (colN i)) := by
  rw [val_main_v35_apply, val_main_v34_apply, val_main_v33_apply, val_main_v32_apply]
  refine congrArg x4 ?_
  funext a; apply Fin.ext
  match a with
  | ⟨0, _⟩ => rfl
  | ⟨1, _⟩ => show ((i 1).val) % 128 = (i 1).val; exact Nat.mod_eq_of_lt (i 1).isLt

/-- The reference's first layer is `learn₁`. -/
theorem layer1_eq (x0 : FVec F S50000x128 .f32) (x1 x2 : IVec S500000 32) (x3 : FVec F S500000 .f32) (x4 : FVec F S2x128 .f32) :
    Cert.KernelIdeal.Layers.learn₁ x0 x1 x2 x3 x4 = val_main_v17 (F := F) x0 x1 x2 x3 x4 := by
  funext i
  show FloatOps.addf (Cert.KernelIdeal.Stages.aggregate x0 x1 x2 x3 i) (Cert.KernelIdeal.Stages.biasRow0 x4 (rowIx (colN i)))
    = FloatOps.addf (val_main_v12 (F := F) x0 x1 x2 x3 i) (val_main_v16 (F := F) x4 i)
  rw [Cert.KernelIdeal.Layers.biasRow0_apply, row0_apply, aggregate_eq]

/-- The reference's second layer is `learn₂`. -/
theorem layer2_eq (x0 : FVec F S50000x128 .f32) (x1 x2 : IVec S500000 32) (x3 : FVec F S500000 .f32) (x4 : FVec F S2x128 .f32) :
    Cert.KernelIdeal.Layers.learn₂ x0 x1 x2 x3 x4 = val_main_v36 (F := F) x0 x1 x2 x3 x4 := by
  funext i
  show FloatOps.addf (Cert.KernelIdeal.Stages.aggregate (Cert.KernelIdeal.Layers.learn₁ x0 x1 x2 x3 x4) x1 x2 x3 i)
      (Cert.KernelIdeal.Stages.biasRow1 x4 (rowIx (colN i)))
    = FloatOps.addf (val_main_v31 (F := F) x0 x1 x2 x3 x4 i) (val_main_v35 (F := F) x4 i)
  rw [Cert.KernelIdeal.Layers.biasRow1_apply, row1_apply, layer1_eq, aggregate_eq, second_step]

/-- The reference's result is `result`. -/
theorem result_eq (x0 : FVec F S50000x128 .f32) (x1 x2 : IVec S500000 32) (x3 : FVec F S500000 .f32) (x4 : FVec F S2x128 .f32) :
    val_main_v39 (F := F) x0 x1 x2 x3 x4 = Cert.KernelIdeal.Layers.result x0 x1 x2 x3 x4 := by
  unfold Cert.KernelIdeal.Layers.result
  rw [layer1_eq, layer2_eq, three_eq]
  rfl

end Cert.ReferenceIdeal.Same

end
-- ==== Proof.lean ====
/-
  Two layers of sparse propagation with a bias and a running sum, divided by 3: the kernel against its reference.

  Both programs compute, from features `fea` [50000, 128], edges (row, col, val) and a bias [2, 128],
      learn₁ = A(fea) + bias₀,   learn₂ = A(learn₁) + bias₁,   result = ((fea + learn₁) + learn₂) / 3,
  where A gathers the source rows at the (normalised) column indices, scales each by its edge weight and adds them
  into zeros at the destination rows, and "+ biasₖ" adds row k of the bias to every row. The kernel leaves A to the
  host and does the two additions of each layer in a region over ten blocks of 5000 rows; the reference does
  everything on the host. The operations and their order are the same on both sides, so the two results are the same
  extended reals entry by entry with no appeal to finiteness; the one thing that differs is the layout of the bias row
  before it is added (a [1, 128] block broadcast inside the body, against a host broadcast over all rows), and both
  read the bias at (k, column).

  The frames of the two kernel programs are the generated ones; the reference's frame is its generated run with the
  result dropped. The idealization rewrote nothing, so `preserves` is trivial. For `algebraic`: the kernel's run
  ends with its result buffer at `Layers.result` of the arguments (KernelResult), the reference's run at its stage
  `val_main_v39`, which is the same function (ReferenceResult), and the arguments agree.
-/
import proofs.«178935_j33535104647603_1_alg».proof.Defs
import proofs.«178935_j33535104647603_1_alg».proof.Proof.Gen.Kernel
import proofs.«178935_j33535104647603_1_alg».proof.Proof.Gen.Kernel.Frame
import proofs.«178935_j33535104647603_1_alg».proof.Proof.Gen.KernelIdeal
import proofs.«178935_j33535104647603_1_alg».proof.Proof.Gen.KernelIdeal.Frame
import proofs.«178935_j33535104647603_1_alg».proof.Proof.Gen.ReferenceIdeal
import proofs.«178935_j33535104647603_1_alg».proof.Proof.Gen.ReferenceIdeal.Run
import proofs.«178935_j33535104647603_1_alg».proof.Proof.Gen.ReferenceIdeal.Read
import proofs.«178935_j33535104647603_1_alg».proof.Proof.Gen.Pre_finite_inputs
import proofs.«178935_j33535104647603_1_alg».proof.Proof.KernelResult
import proofs.«178935_j33535104647603_1_alg».proof.Proof.ReferenceResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both runs end, the kernel's result buffer and the reference's at the same
    function of the arguments. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.Same.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
